-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S1x1024x256 : Shape := ⟨3, ![1, 1024, 256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S1x1024x256 : S_.BroadcastsInDim S1x1024x256 (![] : Fin 0 → Fin S1x1024x256.rank)
  reducesTo_S1x1024x256_S_d0_1_2 : S1x1024x256.ReducesTo [0, 1, 2] S_

variable [Facts]

def fn {F : FTy → Type} [FloatOps F] (main_arg0 : FVec F S16x4096x256 .f32) (main_arg1 : FVec F S1x1024x256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S1x1024x256 .f32 := Host.absf main_arg1
  let main_cst_0 : FVec F S_ .f32 := constant S_ .f32 0x7F800000#32
  let main_v5 : FVec F S1x1024x256 .f32 := broadcastInDim S1x1024x256 ![] bcast_S_S1x1024x256 main_cst_0
  let main_v6 : IVec S1x1024x256 1 := cmpf .olt main_v4 main_v5
  let main_c_1 : IVec S_ 1 := constantI S_ 1 1#1
  let main_v7 : IVec S_ 1 := (fun x v => Host.reduce IntOp.andi x v reducesTo_S1x1024x256_S_d0_1_2 h_S_) main_v6 main_c_1
  let main_v8 : IVec S_ 1 := andi main_v3 main_v7
  main_v8
-- ==== Kernel.lean ====
abbrev S16x4096x256 : Shape := ⟨3, ![16, 4096, 256]⟩
abbrev S1x1024x256 : Shape := ⟨3, ![1, 1024, 256]⟩
abbrev S65536x256 : Shape := ⟨2, ![65536, 256]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S65536x1024 : Shape := ⟨2, ![65536, 1024]⟩
abbrev S2048x256 : Shape := ⟨2, ![2048, 256]⟩
abbrev S2048x1024 : Shape := ⟨2, ![2048, 1024]⟩
abbrev S1024x1 : Shape := ⟨2, ![1024, 1]⟩
abbrev S1024x1024 : Shape := ⟨2, ![1024, 1024]⟩
abbrev S16x4096x1024 : Shape := ⟨3, ![16, 4096, 1024]⟩

abbrev nBuf : Space → Nat
  | .hbm => 11
  | .vmem => 6
  | .smem => 0
  | _ => 0

abbrev bufTy : (tb : Table) → Fin (tcTables nBuf tb) → BufTy
  | .hbm, ⟨0, _⟩ => ⟨S16x4096x256, .f32⟩
  | .hbm, ⟨1, _⟩ => ⟨S1x1024x256, .f32⟩
  | .hbm, ⟨2, _⟩ => ⟨S65536x256, .f32⟩
  | .hbm, ⟨3, _⟩ => ⟨S1024x256, .f32⟩
  | .hbm, ⟨4, _⟩ => ⟨S1024x256, .bf16⟩
  | .hbm, ⟨5, _⟩ => ⟨S1024x256, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S65536x1024, .f32⟩
  | .hbm, ⟨10, _⟩ => ⟨S16x4096x1024, .f32⟩
  | .local _ .vmem, ⟨0, _⟩ => ⟨S2048x256, .f32⟩
  | .local _ .vmem, ⟨1, _⟩ => ⟨S2048x256, .f32⟩
  | .local _ .vmem, ⟨2, _⟩ => ⟨S1024x256, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v4 : BitVec 32 := Scalar.addi c0_i32 c2_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v5 : BitVec 32 := Scalar.muli arg5 c1024_i32
  v5
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c1024_i32 : BitVec 32 := 1024#32
  let v5 : BitVec 32 := Scalar.muli arg5 c1024_i32
  let v6 : BitVec 32 := v5
  let v7 : Index := Scalar.indexCast v6
  let c0_4 : Index := 0#32
  ![v7.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c1024_i32 : BitVec 32 := 1024#32
  let v5 : BitVec 32 := Scalar.muli arg5 c1024_i32
  let v6 : BitVec 32 := v5
  let v21 : Index := Scalar.indexCast v6
  let c0_7 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096x256_S65536x256 : S16x4096x256.ShapeCasts S65536x256
  shapeCasts_S1x1024x256_S1024x256 : S1x1024x256.ShapeCasts S1024x256
  bitsLt_bf16_f32 : FTy.bits .bf16 < FTy.bits .f32
  reducesTo_S1024x256_S1024_d1 : S1024x256.ReducesTo [1] S1024
  h_S_ : 0 < S_.numel
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x256_S1024 : S1024x256.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  h_S1024x1024 : 0 < S1024x1024.numel
  shapeCasts_S65536x1024_S16x4096x1024 : S65536x1024.ShapeCasts S16x4096x1024
  dot_S1024x256_S1024x256_S1024x1024_1_1_0_0_n_n_wf : DotDims.WF S1024x256 S1024x256 S1024x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S2048x256.size a
  k0_off2_inb : ∀ k0_t1 : Fin k0_t1_loop.trips, ∀ a, (k0_off2 k0_t1) a + S1024x1024.size a ≤ S2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S65536x1024.size a
  hwx0_3 : ∀ i : grid0.Coords, EltTy.bits .f32 = 32 ∨ (Rect.block (s := S65536x1024) S2048x1024.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S1x1024x256 : Shape := ⟨3, ![1, 1024, 256]⟩
abbrev S65536x256 : Shape := ⟨2, ![65536, 256]⟩
abbrev S1024x256 : Shape := ⟨2, ![1024, 256]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S256x1024 : Shape := ⟨2, ![256, 1024]⟩
abbrev S16x4096x1024 : Shape := ⟨3, ![16, 4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S1x1024x256, .f32⟩
  | .hbm, ⟨2, _⟩ => ⟨S65536x256, .f32⟩
  | .hbm, ⟨3, _⟩ => ⟨S1024x256, .f32⟩
  | .hbm, ⟨4, _⟩ => ⟨S65536x256, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S256x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S16x4096x1024, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S16x4096x256_S65536x256 : S16x4096x256.ShapeCasts S65536x256
  shapeCasts_S1x1024x256_S1024x256 : S1x1024x256.ShapeCasts S1024x256
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1024x256_S1024_d1 : S1024x256.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x256_S256x1024_1_0 : S1024x256.Transposes [1, 0] S256x1024
  bcast_S_S65536x1024 : S_.BroadcastsInDim S65536x1024 (![] : Fin 0 → Fin S65536x1024.rank)
  shapeCasts_S65536x1024_S16x4096x1024 : S65536x1024.ShapeCasts S16x4096x1024
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.DistSpec.lean ====
/-
  Squared Euclidean distances by the expansion  ‖x − c‖² = ‖x‖² + ‖c‖² − 2·⟨x, c⟩,  on the extended reals.

  Everything both programs compute at an output entry (n, k) depends on two ROWS only: row n of the feature
  matrix and row k of the centroid matrix (each of 256 entries). So the specification is stated once for a pair
  of rows (`distRow`), and the result matrix is `distRow` of the rows its index names (`dist`). No law beyond
  reading sums at an index joins the two programs: both add the two squared norms first and subtract twice the
  inner product last, so nothing here needs the entries to be finite.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-- The factor in front of the inner product: the f32 literal 2.0, kept as its word (the same word on both sides). -/
abbrev two : EReal := Ideal.ofBits .f32 0x40000000#32

/-- The squared norm of a row: Σ_d c[d]². -/
def sqNorm (c : Fin 256 → EReal) : EReal := ∑ d : Fin 256, c d * c d

/-- One entry of the result from a feature row `x`, a centroid row `c` and the centroid's squared norm `c2`
    (passed separately, since the kernel receives it as a third operand):  (Σ_d x[d]² + c2) − 2 · Σ_d x[d]·c[d]. -/
def distRow (x c : Fin 256 → EReal) (c2 : EReal) : EReal :=
  ((∑ d : Fin 256, x d * x d) + c2) - two * ∑ d : Fin 256, x d * c d

/-- Row `n` of a matrix with 256 columns. -/
abbrev row {R : ℕ} (X : (⟨2, ![R, 256]⟩ : Shape).Idx → EReal) (n : Fin R) : Fin 256 → EReal := fun d => X (ix2 n d)

/-- THE SPECIFICATION: entry (n, k) of the [65536, 1024] result is `distRow` of feature row n and centroid row k,
    with the centroid's squared norm computed from that same row. -/
def dist (X : (⟨2, ![65536, 256]⟩ : Shape).Idx → EReal) (C : (⟨2, ![1024, 256]⟩ : Shape).Idx → EReal) :
    (⟨2, ![65536, 1024]⟩ : Shape).Idx → EReal :=
  fun j => distRow (row X ⟨(j 0).val, idx2_lt0 j⟩) (row C ⟨(j 1).val, idx2_lt1 j⟩) (sqNorm (row C ⟨(j 1).val, idx2_lt1 j⟩))

theorem dist_ix2 (X : (⟨2, ![65536, 256]⟩ : Shape).Idx → EReal) (C : (⟨2, ![1024, 256]⟩ : Shape).Idx → EReal)
    (n : Fin 65536) (k : Fin 1024) : dist X C (ix2 n k) = distRow (row X n) (row C k) (sqNorm (row C k)) := rfl

end Cert.Dist

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.Payload.lean ====
/-
  The kernel body's arithmetic, read at one entry. For a chunk of 1024 feature rows `v8`, the centroid block
  `v0` and the row `v2` of centroid squared norms, the value the body stores has at (p, q)
      (Σ_d v8[p,d]² + v2[0,q]) − 2 · Σ_d v8[p,d]·v0[q,d]
  — `distRow` of row p of the chunk and row q of the centroids. The row sum of squares reaches the entry through a
  lane reduction, a cast to a column and a broadcast across the columns; the norms through a broadcast down the
  rows; the inner product is the matrix product that contracts BOTH operands along their second axis, into a zero
  accumulator; the rounding of the left operand to bf16 is the identity on the extended reals.
-/
import proofs.«162735_j66348654788813_2_alg».proof.Proof.Gen.KernelIdeal.Skeleton
import proofs.«162735_j66348654788813_2_alg».proof.Proof.DistSpec
import proofs.«162735_j66348654788813_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Cert.Dist

/-- The lane reduction of a [1024, 256] matrix, read at row `p`: the sum of that row's 256 entries. -/
theorem rowSum_apply (y : FVec Ideal S1024x256 .f32) (hφ : FKind.Formats .f32)
    (hacc : (0x00000000#32 : BitVec 32) = 0x00000000#32) (p : Fin 1024) :
    multiReduction (F := Ideal) .add [1] S1024 y 0x00000000#32 reduces_S1024x256_S1024 hφ hacc (ix1 p)
      = ∑ d : Fin 256, y (ix2 p d) := by
  refine (Ideal.multiReduction_add_single y 0x00000000#32 reduces_S1024x256_S1024 hφ hacc (ix1 p)).trans ?_
  refine Finset.sum_congr rfl fun d _ => ?_
  exact congrArg y (funext fun a => Fin.ext (by match a with | ⟨0, _⟩ => rfl | ⟨1, _⟩ => rfl))

/-- The row sums as a column spread over the 1024 columns, read at (p, q): row p's sum. -/
theorem colSpread_apply (s : FVec Ideal S1024 .f32) (p q : Fin 1024) :
    broadcastTo S1024x1024 (shapeCast S1024x1 s shapeCasts_S1024_S1024x1) broadcasts_S1024x1_S1024x1024 (ix2 p q)
      = s (ix1 p) :=
  (ColumnLayout.broadcastTo_a1_ab_apply _ broadcasts_S1024x1_S1024x1024 p q).trans
    (ColumnLayout.shapeCast_a_a1_apply s shapeCasts_S1024_S1024x1 p (0 : Fin 1))

/-- The one row of norms spread down the 1024 rows, read at (p, q): its entry q. -/
theorem rowSpread_apply (r : FVec Ideal S1x1024 .f32) (p q : Fin 1024) :
    broadcastTo S1024x1024 r broadcasts_S1x1024_S1024x1024 (ix2 p q) = r (ix2 (0 : Fin 1) q) :=
  broadcastTo_1b_ab_apply r broadcasts_S1x1024_S1024x1024 p q

/-! The operand indices of the body's matrix product at output (i₀, i₁) and contraction coordinate k: the left
    operand at (i₀, k), the right operand at (i₁, k) — both operands are contracted along their second axis. -/
theorem dot_lhs_0 (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem dot_lhs_1 (i : S1024x1024.Idx) (k : dot_S1024x256_S1024x256_S1024x1024_1_1_0_0_n_n.contr.Idx) :
    (dot_S1024x256_S1024x256_S1024x1024_1_1_0_0_n_n.lhsIdx i k 1).val = (k ⟨0, by decide⟩).val :=
  dot_S1024x256_S1024x256_S1024x1024_1_1_0_0_n_n.lhsIdx_val_of_single rfl i k
theorem dot_rhs_0 (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
theorem dot_rhs_1 (i : S1024x1024.Idx) (k : dot_S1024x256_S1024x256_S1024x1024_1_1_0_0_n_n.contr.Idx) :
    (dot_S1024x256_S1024x256_S1024x1024_1_1_0_0_n_n.rhsIdx i k 1).val = (k ⟨0, by decide⟩).val :=
  dot_S1024x256_S1024x256_S1024x1024_1_1_0_0_n_n.rhsIdx_val_of_single rfl i k

/-- So the body's matrix product into the zero accumulator, read at (p, q), is Σ_d l[p,d] · r[q,d]. -/
theorem dot_apply (l : FVec Ideal S1024x256 .bf16) (r : FVec Ideal S1024x256 .bf16) (p q : Fin 1024) :
    matmul dot_S1024x256_S1024x256_S1024x1024_1_1_0_0_n_n none l r (constant S1024x1024 .f32 0x00000000#32) (ix2 p q)
      = ∑ d : Fin 256, l (ix2 p d) * r (ix2 q d) := by
  refine (Ideal.matmul_constant_zero_apply dot_S1024x256_S1024x256_S1024x1024_1_1_0_0_n_n none l r (ix2 p q)).trans ?_
  rw [← Equiv.sum_comp (ValueIdx.contrEquiv1 dot_S1024x256_S1024x256_S1024x1024_1_1_0_0_n_n 256 rfl rfl).symm]
  refine Finset.sum_congr rfl fun d _ => ?_
  have hd := ValueIdx.contrEquiv1_symm_val dot_S1024x256_S1024x256_S1024x1024_1_1_0_0_n_n 256 rfl rfl d
  have el : dot_S1024x256_S1024x256_S1024x1024_1_1_0_0_n_n.lhsIdx (ix2 p q)
      ((ValueIdx.contrEquiv1 dot_S1024x256_S1024x256_S1024x1024_1_1_0_0_n_n 256 rfl rfl).symm d) = ix2 p d :=
    funext fun a => Fin.ext (by
      match a with
      | ⟨0, _⟩ => exact dot_lhs_0 _ _
      | ⟨1, _⟩ => exact (dot_lhs_1 _ _).trans hd)
  have er : dot_S1024x256_S1024x256_S1024x1024_1_1_0_0_n_n.rhsIdx (ix2 p q)
      ((ValueIdx.contrEquiv1 dot_S1024x256_S1024x256_S1024x1024_1_1_0_0_n_n 256 rfl rfl).symm d) = ix2 q d :=
    funext fun a => Fin.ext (by
      match a with
      | ⟨0, _⟩ => exact dot_rhs_0 _ _
      | ⟨1, _⟩ => exact (dot_rhs_1 _ _).trans hd)
  rw [el, er]

/-- THE PAYLOAD AT AN ENTRY: what the body stores for a chunk, at (p, q), is `distRow` of the chunk's row p and the
    centroid block's row q, with the norm operand's entry q as the centroid's squared norm. -/
theorem pay_apply (v0 : FVec Ideal S1024x256 .bf16) (v2 : FVec Ideal S1x1024 .f32) (v8 : FVec Ideal S1024x256 .f32)
    (p q : Fin 1024) :
    k0_pay1 (F := Ideal) v0 v2 v8 (ix2 p q)
      = distRow (fun d => v8 (ix2 p d)) (fun d => v0 (ix2 q d)) (v2 (ix2 (0 : Fin 1) q)) := by
  unfold k0_pay1 distRow
  simp only [shapeCast_self]
  show (broadcastTo S1024x1024 (shapeCast S1024x1 (multiReduction (F := Ideal) .add [1] S1024 (mulf v8 v8) 0x00000000#32 reduces_S1024x256_S1024 (.inl rfl) rfl) shapeCasts_S1024_S1024x1) broadcasts_S1024x1_S1024x1024 (ix2 p q)
        + broadcastTo S1024x1024 v2 broadcasts_S1x1024_S1024x1024 (ix2 p q))
      - Ideal.ofBits .f32 0x40000000#32 * matmul dot_S1024x256_S1024x256_S1024x1024_1_1_0_0_n_n none (truncf .bf16 v8 bitsLt_bf16_f32) v0 (constant S1024x1024 .f32 0x00000000#32) (ix2 p q) = _
  rw [colSpread_apply, rowSum_apply, rowSpread_apply, dot_apply]
  rfl

end Cert.KernelIdeal.PayValue

end
-- ==== Proof.BodyValue.lean ====
/-
  What the kernel body leaves in its [2048, 1024] output block, as one function of the three input blocks.

  The body walks its 2048 feature rows in two chunks of 1024: trip k of its loop loads rows 1024k … 1024k+1023 of
  the feature block, computes the distances of those rows to all 1024 centroids, and stores them at the same rows
  of the output block. Each stored chunk is therefore the restriction, to its rows, of ONE function of the block
  index: entry (r, q) is `distRow` of feature row r, centroid row q and the norm operand's entry q. The two chunks
  tile the block, so the block holds that function everywhere.
-/
import proofs.«162735_j66348654788813_2_alg».proof.Proof.Gen.KernelIdeal.Frame
import proofs.«162735_j66348654788813_2_alg».proof.Proof.Payload
import Idealize.ShloMosaic.Lib.Pipeline.Value
import Idealize.ShloMosaic.Lib.Tactic

noncomputable section

namespace Cert.KernelIdeal.BodyValue

open Cert.KernelIdeal Cert.KernelIdeal.Gen Idealize.ShloMosaic Idealize.ShloMosaic.TcCoe Idealize.SL.Sem
open Idealize.ShloMosaic.ValueIdx Cert.Dist

/-! ## The stores the run found -/

section Pieces
variable {F : FTy → Type} [FloatOps F]

/-- Trip `k` makes one store: at the trip's row offset, the payload of the feature rows loaded at that offset. -/
theorem trip_piece (𝒱 : Variants) (c : Dev nD) (bd : Option 𝒱.V) (i : grid0.Coords)
    (arg1 : Memref sig .tc .vmem S2048x256 .f32) (harg1 : arg1.IsWhole) (arg2 : Memref sig .tc .vmem S1024x256 .bf16) (harg2 : arg2.IsWhole)
    (arg3 : Memref sig .tc .vmem S1x1024 .f32) (harg3 : arg3.IsWhole) (arg4 : Memref sig .tc .vmem S2048x1024 .f32) (harg4 : arg4.IsWhole)
    (v0 : Vec F S1024x256 .bf16) (v2 : Vec F S1x1024 .f32) (X : BufTy.Contents (Elt F) arg1.view.ty) (k : Fin k0_t1_loop.trips) :
    tripL_k0_t1 (F := F) 𝒱 c bd i arg1 harg1 arg2 harg2 arg3 harg3 arg4 harg4 v0 v2 X k
      = [⟨Rect.unit (s := S2048x1024) (k0_off2 k) S1024x1024.size (k0_off2_inb k),
          k0_pay1 v0 v2 (View.readAt (Elt F) arg1.view (Rect.unit (s := S2048x256) (k0_off1 k) S1024x256.size (k0_off1_inb k)).toLoadRect X)⟩] := by
  unfold tripL_k0_t1 trip_k0_t1
  rfl

/-- A property every trip's stores have, every store of the trips before `n` has: by induction on the trips. -/
theorem pb_forall (P : View.Piece (Elt F) S2048x1024 .f32 → Prop) (𝒱 : Variants) (c : Dev nD) (bd : Option 𝒱.V) (i : grid0.Coords)
    (arg1 : Memref sig .tc .vmem S2048x256 .f32) (harg1 : arg1.IsWhole) (arg2 : Memref sig .tc .vmem S1024x256 .bf16) (harg2 : arg2.IsWhole)
    (arg3 : Memref sig .tc .vmem S1x1024 .f32) (harg3 : arg3.IsWhole) (arg4 : Memref sig .tc .vmem S2048x1024 .f32) (harg4 : arg4.IsWhole)
    (v0 : Vec F S1024x256 .bf16) (v2 : Vec F S1x1024 .f32) (X : BufTy.Contents (Elt F) arg1.view.ty)
    (hP : ∀ k : Fin k0_t1_loop.trips, ∀ p ∈ tripL_k0_t1 (F := F) 𝒱 c bd i arg1 harg1 arg2 harg2 arg3 harg3 arg4 harg4 v0 v2 X k, P p) :
    ∀ n : ℕ, n ≤ k0_t1_loop.trips →
      ∀ p ∈ pb_k0_t1 (F := F) 𝒱 c bd i arg1 harg1 arg2 harg2 arg3 harg3 arg4 harg4 v0 v2 X n, P p
  | 0, _, p, hp => by
    rw [pb_k0_t1] at hp
    exact absurd hp List.not_mem_nil
  | n + 1, hn, p, hp => by
    have e : pb_k0_t1 (F := F) 𝒱 c bd i arg1 harg1 arg2 harg2 arg3 harg3 arg4 harg4 v0 v2 X (n + 1)
        = tripL_k0_t1 (F := F) 𝒱 c bd i arg1 harg1 arg2 harg2 arg3 harg3 arg4 harg4 v0 v2 X ⟨n, hn⟩
          ++ pb_k0_t1 (F := F) 𝒱 c bd i arg1 harg1 arg2 harg2 arg3 harg3 arg4 harg4 v0 v2 X n :=
      pb_k0_t1_succ 𝒱 c bd i arg1 harg1 arg2 harg2 arg3 harg3 arg4 harg4 v0 v2 X ⟨n, hn⟩
    rw [e] at hp
    rcases List.mem_append.mp hp with h | h
    · exact hP ⟨n, hn⟩ p h
    · exact pb_forall P 𝒱 c bd i arg1 harg1 arg2 harg2 arg3 harg3 arg4 harg4 v0 v2 X hP n (Nat.le_of_succ_le hn) p h

/-- The whole body's stores are those of all the loop's trips, over the two blocks it loaded before the loop. -/
theorem run_pieces (c : Dev nD) (i : grid0.Coords)
    (arg1 : Memref sig .tc .vmem S2048x256 .f32) (harg1 : arg1.IsWhole) (arg2 : Memref sig .tc .vmem S1024x256 .bf16) (harg2 : arg2.IsWhole)
    (arg3 : Memref sig .tc .vmem S1x1024 .f32) (harg3 : arg3.IsWhole) (arg4 : Memref sig .tc .vmem S2048x1024 .f32) (harg4 : arg4.IsWhole)
    (x0 : Vec F S2048x256 .f32) (x1 : Vec F S1024x256 .bf16) (x2 : Vec F S1x1024 .f32) :
    (kernelRun0_A c i arg1 harg1 arg2 harg2 arg3 harg3 arg4 harg4 x0 x1 x2).1
      = pb_k0_t1 (F := F) Variants.none c none i arg1 harg1 arg2 harg2 arg3 harg3 arg4 harg4
          (View.readAt (Elt F) arg2.view (Rect.unit (s := S1024x256) ![0, 0] S1024x256.size inb_S1024x256_S1024x256_0_0).toLoadRect (harg2.unread x1))
          (View.readAt (Elt F) arg3.view (Rect.unit (s := S1x1024) ![0, 0] S1x1024.size inb_S1x1024_S1x1024_0_0).toLoadRect (harg3.unread x2))
          (harg1.unread x0) k0_t1_loop.trips := by
  unfold kernelRun0_A
  rfl

end Pieces

/-! ## The block the body leaves, at the ideal values -/

theorem hz : (![0, 0] : Fin 2 → Nat) = fun _ => 0 := funext fun a => by fin_cases a <;> rfl

/-- The output block as a function of the three input blocks: entry (r, q) from feature row r and centroid q. -/
def blockDist (x0 : FVec Ideal S2048x256 .f32) (x1 : FVec Ideal S1024x256 .bf16) (x2 : FVec Ideal S1x1024 .f32) :
    S2048x1024.Idx → EReal :=
  fun y => distRow (row x0 ⟨(y 0).val, idx2_lt0 y⟩) (row x1 ⟨(y 1).val, idx2_lt1 y⟩) (x2 (ix2 (0 : Fin 1) ⟨(y 1).val, idx2_lt1 y⟩))

/-- A chunk's stored value, at its local entry, is the block function at the entry's place in the block — for any
    row offset shared by the load and the store (axis 1 is taken whole by both). -/
theorem chunk_ok (arg1 : Memref sig .tc .vmem S2048x256 .f32) (harg1 : arg1.IsWhole) (arg2 : Memref sig .tc .vmem S1024x256 .bf16) (harg2 : arg2.IsWhole)
    (arg3 : Memref sig .tc .vmem S1x1024 .f32) (harg3 : arg3.IsWhole)
    (x0 : FVec Ideal S2048x256 .f32) (x1 : FVec Ideal S1024x256 .bf16) (x2 : FVec Ideal S1x1024 .f32)
    (o1 : Fin 2 → ℕ) (h1 : ∀ a, o1 a + S1024x256.size a ≤ S2048x256.size a)
    (o2 : Fin 2 → ℕ) (h2 : ∀ a, o2 a + S1024x1024.size a ≤ S2048x1024.size a)
    (e0 : o1 0 = o2 0) (e1 : o1 1 = 0) (e2 : o2 1 = 0) (a b : Fin 1024) :
    k0_pay1 (F := Ideal)
        (View.readAt (Elt Ideal) arg2.view (Rect.unit (s := S1024x256) ![0, 0] S1024x256.size inb_S1024x256_S1024x256_0_0).toLoadRect (harg2.unread x1))
        (View.readAt (Elt Ideal) arg3.view (Rect.unit (s := S1x1024) ![0, 0] S1x1024.size inb_S1x1024_S1x1024_0_0).toLoadRect (harg3.unread x2))
        (View.readAt (Elt Ideal) arg1.view (Rect.unit (s := S2048x256) o1 S1024x256.size h1).toLoadRect (harg1.unread x0)) (ix2 a b)
      = blockDist x0 x1 x2 ((Rect.unit (s := S2048x1024) o2 S1024x1024.size h2).emb (ix2 a b)) := by
  rw [PayValue.pay_apply]
  simp only [View.readAt_eq_ld, harg1.read_unread, harg2.read_unread, harg3.read_unread,
    View.ld_unit_zero (S := S1024x256) hz, View.ld_unit_zero (S := S1x1024) hz]
  rw [View.ld_unit_zero (S := S1024x256) hz, View.ld_unit_zero (S := S1x1024) hz]
  unfold blockDist
  have hb : (⟨((Rect.unit (s := S2048x1024) o2 S1024x1024.size h2).emb (ix2 a b) 1).val,
      idx2_lt1 ((Rect.unit (s := S2048x1024) o2 S1024x1024.size h2).emb (ix2 a b))⟩ : Fin 1024) = b :=
    Fin.ext (by show o2 1 + 1 * b.val = b.val; omega)
  rw [hb]
  refine congrArg (fun r => distRow r (row x1 b) (x2 (ix2 (0 : Fin 1) b))) ?_
  funext d
  refine congrArg x0 (funext fun ax => Fin.ext ?_)
  match ax with
  | ⟨0, _⟩ => show o1 0 + 1 * a.val = o2 0 + 1 * a.val; omega
  | ⟨1, _⟩ => show o1 1 + 1 * d.val = d.val; omega

/-- WHAT THE BODY LEAVES in the output block: the block function of its three input blocks, at every entry — every
    store of every trip is a chunk of it (`chunk_ok`), and the stores cover the block. -/
theorem out_apply (c : Dev nD) (i : grid0.Coords)
    (arg1 : Memref sig .tc .vmem S2048x256 .f32) (harg1 : arg1.IsWhole) (arg2 : Memref sig .tc .vmem S1024x256 .bf16) (harg2 : arg2.IsWhole)
    (arg3 : Memref sig .tc .vmem S1x1024 .f32) (harg3 : arg3.IsWhole) (arg4 : Memref sig .tc .vmem S2048x1024 .f32) (harg4 : arg4.IsWhole)
    (x0 : Vec Ideal S2048x256 .f32) (x1 : Vec Ideal S1024x256 .bf16) (x2 : Vec Ideal S1x1024 .f32) (y : S2048x1024.Idx) :
    out0_A_3 (F := Ideal) c i arg1 harg1 arg2 harg2 arg3 harg3 arg4 harg4 x0 x1 x2 y = blockDist x0 x1 x2 y := by
  unfold out0_A_3
  rw [View.read_writes_eq_canon _ _ _ (cover0_A_3 c i arg1 harg1 arg2 harg2 arg3 harg3 arg4 harg4 x0 x1 x2)]
  refine View.canon_apply_of_pieces (blockDist x0 x1 x2) _ ?_ y
    (cover0_A_3 c i arg1 harg1 arg2 harg2 arg3 harg3 arg4 harg4 x0 x1 x2 y)
  rw [run_pieces]
  refine pb_forall (F := Ideal) (fun p => ∀ x : p.1.shape.Idx, p.2 x = blockDist x0 x1 x2 (p.1.emb x)) _ c _ i
    arg1 harg1 arg2 harg2 arg3 harg3 arg4 harg4 _ _ _ (fun k p hp => ?_) _ (Nat.le_refl _)
  rw [trip_piece, List.mem_singleton] at hp
  subst hp
  intro x
  obtain ⟨a, b, rfl⟩ : ∃ (a b : Fin 1024), x = ix2 a b := ⟨x 0, x 1, eq_ix2 x⟩
  have e0 : k0_off1 k 0 = k0_off2 k 0 := by rw [k0_off1_eq, k0_off2_eq]
  have e1 : k0_off1 k 1 = 0 := by rw [k0_off1_eq]; rfl
  have e2 : k0_off2 k 1 = 0 := by rw [k0_off2_eq]; rfl
  exact chunk_ok arg1 harg1 arg2 harg2 arg3 harg3 x0 x1 x2 (k0_off1 k) (k0_off1_inb k) (k0_off2 k) (k0_off2_inb k) e0 e1 e2 a b

end Cert.KernelIdeal.BodyValue

end
-- ==== Proof.KernelValue.lean ====
/-
  The idealized kernel's result, read off its run.

  The launch cuts the [65536, 256] feature matrix into 32 blocks of 2048 rows; grid point t takes block t, the whole
  centroid matrix and the whole row of centroid norms, and writes block t of the [65536, 1024] result. What it
  writes is the block function of its inputs (BodyValue), and a block's entry (r, q) sits at row 2048·t + r of the
  array, so each written block is the restriction of ONE function of the three arrays the region finds. The 32
  blocks tile the result, which therefore holds that function everywhere. The three arrays are what the host lines
  before the launch make of the arguments: the features flattened to a matrix, the centroids flattened (their
  rounding to bf16 is the identity on the extended reals), and the centroids' squared norms 0 + Σ_d c[k,d]² laid as
  one row. After the launch the host only reshapes the result to [16, 4096, 1024].
-/
import proofs.«162735_j66348654788813_2_alg».proof.Proof.BodyValue
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Dist Cert.KernelIdeal.BodyValue

variable (m : (ℓ : Loc nD τ sig) → Buf (Elt Ideal) ℓ) (ρ : Dev nD → PrngReg)

/-! ## The result array as one function of the three arrays the region finds -/

/-- Entry (n, k) from row n of the feature array, row k of the centroid array and entry k of the norm row. -/
def arrDist (A0 : FVec Ideal S65536x256 .f32) (A1 : FVec Ideal S1024x256 .bf16) (A2 : FVec Ideal S1x1024 .f32) :
    S65536x1024.Idx → EReal :=
  fun j => distRow (row A0 ⟨(j 0).val, idx2_lt0 j⟩) (row A1 ⟨(j 1).val, idx2_lt1 j⟩) (A2 (ix2 (0 : Fin 1) ⟨(j 1).val, idx2_lt1 j⟩))

/-- The printed index maps over the grid: the feature window and the result window are both at block row t, every
    other block coordinate is 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block's entry in terms of the arrays: the block function of the three input blocks at (r, q) is the array
    function at the entry's place in the result — for blocks read through any embeddings that keep the feature rows
    aligned with the result rows and take the other two arrays whole. -/
theorem block_eq (A0 : FVec Ideal S65536x256 .f32) (A1 : FVec Ideal S1024x256 .bf16) (A2 : FVec Ideal S1x1024 .f32)
    (E0 : S2048x256.Idx → S65536x256.Idx) (E1 : S1024x256.Idx → S1024x256.Idx) (E2 : S1x1024.Idx → S1x1024.Idx)
    (E3 : S2048x1024.Idx → S65536x1024.Idx) (R : ℕ)
    (h00 : ∀ x, (E0 x 0).val = R + (x 0).val) (h01 : ∀ x, (E0 x 1).val = (x 1).val)
    (h10 : ∀ x, (E1 x 0).val = (x 0).val) (h11 : ∀ x, (E1 x 1).val = (x 1).val)
    (h20 : ∀ x, (E2 x 0).val = (x 0).val) (h21 : ∀ x, (E2 x 1).val = (x 1).val)
    (h30 : ∀ x, (E3 x 0).val = R + (x 0).val) (h31 : ∀ x, (E3 x 1).val = (x 1).val)
    (r : Fin 2048) (q : Fin 1024) :
    blockDist (fun x => A0 (E0 x)) (fun x => A1 (E1 x)) (fun x => A2 (E2 x)) (ix2 r q) = arrDist A0 A1 A2 (E3 (ix2 r q)) := by
  unfold blockDist arrDist
  have hq : (⟨(E3 (ix2 r q) 1).val, idx2_lt1 (E3 (ix2 r q))⟩ : Fin 1024) = q := Fin.ext (h31 (ix2 r q))
  rw [hq]
  have e2 : E2 (ix2 (0 : Fin 1) q) = ix2 (0 : Fin 1) q := funext fun ax => Fin.ext (by
    match ax with
    | ⟨0, _⟩ => exact h20 _
    | ⟨1, _⟩ => exact h21 _)
  have e1 : ∀ d : Fin 256, E1 (ix2 q d) = ix2 q d := fun d => funext fun ax => Fin.ext (by
    match ax with
    | ⟨0, _⟩ => exact h10 _
    | ⟨1, _⟩ => exact h11 _)
  have e0 : ∀ d : Fin 256, E0 (ix2 r d) = ix2 (⟨(E3 (ix2 r q) 0).val, idx2_lt0 (E3 (ix2 r q))⟩ : Fin 65536) d :=
    fun d => funext fun ax => Fin.ext (by
      match ax with
      | ⟨0, _⟩ => exact (h00 (ix2 r d)).trans (h30 (ix2 r q)).symm
      | ⟨1, _⟩ => exact h01 (ix2 r d))
  show distRow (fun d => A0 (E0 (ix2 r d))) (fun d => A1 (E1 (ix2 q d))) (A2 (E2 (ix2 (0 : Fin 1) q))) = _
  rw [e2]
  simp only [e0, e1]

/-- WHAT POINT `t` WRITES BACK is block `t` of the array function of the three arrays the region finds. -/
theorem flushed_eq (c : Dev nD) (t : Fin cfg0.N) :
    (dats m 0 c).flushed 3 t
      = ((cfg0.win 3).blk t).view.read (Elt Ideal) (arrDist (V m c main_v0) (V m c main_v2) (V m c main_v5)) := by
  show (cfg0.win 3).cut (grid0.coords t) ((dats m 0 c).after 3 t) = _
  rw [after0_3]
  unfold outsAt0
  obtain ⟨f0, f1, f2, f3, f4, f5, f6, f7⟩ := idx_facts t
  funext y
  refine (out_apply c (grid0.coords t) (ms0_0 t) (hs0_0 t) (ms0_1 t) (hs0_1 t) (ms0_2 t) (hs0_2 t) (ms0_3 t) (hs0_3 t)
    (iblk m c 0 t) (iblk m c 1 t) (iblk m c 2 t) y).trans ?_
  obtain ⟨r, q, rfl⟩ : ∃ (r : Fin 2048) (q : Fin 1024), y = ix2 r q := ⟨y 0, y 1, eq_ix2 y⟩
  show blockDist (fun x => V m c main_v0 (((cfg0.win 0).blk t).view.emb x)) (fun x => V m c main_v2 (((cfg0.win 1).blk t).view.emb x))
      (fun x => V m c main_v5 (((cfg0.win 2).blk t).view.emb x)) (ix2 r q)
    = arrDist (V m c main_v0) (V m c main_v2) (V m c main_v5) (((cfg0.win 3).blk t).view.emb (ix2 r q))
  generalize V m c main_v0 = A0
  generalize V m c main_v2 = A1
  generalize V m c main_v5 = A2
  refine block_eq A0 A1 A2 _ _ _ _ (win0_3.index t (0 : Fin 2) * 2048) ?_ ?_ ?_ ?_ ?_ ?_ ?_ ?_ r q
  · intro x; show win0_0.index t (0 : Fin 2) * 2048 + 1 * (x 0).val = win0_3.index t (0 : Fin 2) * 2048 + (x 0).val; omega
  · intro x; show win0_0.index t (1 : Fin 2) * 256 + 1 * (x 1).val = (x 1).val; omega
  · intro x; show win0_1.index t (0 : Fin 2) * 1024 + 1 * (x 0).val = (x 0).val; omega
  · intro x; show win0_1.index t (1 : Fin 2) * 256 + 1 * (x 1).val = (x 1).val; omega
  · intro x; show win0_2.index t (0 : Fin 2) * 1 + 1 * (x 0).val = (x 0).val; omega
  · intro x; show win0_2.index t (1 : Fin 2) * 1024 + 1 * (x 1).val = (x 1).val; omega
  · intro x; show win0_3.index t (0 : Fin 2) * 2048 + 1 * (x 0).val = win0_3.index t (0 : Fin 2) * 2048 + (x 0).val; omega
  · intro x; show win0_3.index t (1 : Fin 2) * 1024 + 1 * (x 1).val = (x 1).val; omega

/-- An index of the result is in point `t`'s block iff each coordinate is in the block's range on its axis. -/
theorem mem_blk (t : Fin cfg0.N) (i : S65536x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v6).slice (win0_3.rect t)).set ↔ _
  rw [View.set_slice_whole, Rect.mem_set_unit]
  exact Iff.rfl

/-- THE COVER: row n of the result lies in the block of point n / 2048 (32 blocks of 2048 rows, all 1024 columns). -/
theorem cover (i : S65536x1024.Idx) :
    ∃ t : Fin cfg0.N, (cfg0.win 3).flush t = true ∧ i ∈ ((cfg0.win 3).blk t).view.set := by
  have hN : cfg0.N = 32 := N_0
  have hi0 : (i 0).val < 65536 := (i 0).isLt
  have hi1 : (i 1).val < 1024 := (i 1).isLt
  have ht : (i 0).val / 2048 < cfg0.N := by rw [hN]; omega
  refine ⟨⟨(i 0).val / 2048, ht⟩, flush0_3 _, ?_⟩
  rw [mem_blk]
  obtain ⟨-, -, -, -, -, -, f6, f7⟩ := idx_facts ⟨(i 0).val / 2048, ht⟩
  have f6' : win0_3.index ⟨(i 0).val / 2048, ht⟩ (0 : Fin 2) = (i 0).val / 2048 := f6
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    omega
  | ⟨1, _⟩ =>
    show win0_3.index ⟨(i 0).val / 2048, ht⟩ (1 : Fin 2) * 1024 ≤ (i 1).val
      ∧ (i 1).val < win0_3.index ⟨(i 0).val / 2048, ht⟩ (1 : Fin 2) * 1024 + 1024
    omega

/-- THE RESULT ARRAY after the run: the array function of the three arrays the region finds. -/
theorem final (c : Dev nD) :
    (dats m 0 c).arrAt 3 cfg0.N = arrDist (V m c main_v0) (V m c main_v2) (V m c main_v5) :=
  (dats m 0 c).arrAt_eq_of_cover 3 _ (fun t _ => flushed_eq m c t) cover

/-! ## The three arrays, from the arguments -/

/-- The host flattens the features to a [65536, 256] matrix. -/
theorem V_v0 (c : Dev nD) : (V m c main_v0 : S65536x256.Idx → EReal)
    = shapeCast S65536x256 (m ((c : Thread nD τ).loc main_arg0)) shapeCasts_S16x4096x256_S65536x256 := by
  show StableHlo.after hostOps0 (fun b => m (c, b)) (Proc.devRef .tc main_v0) = _
  after_results
  rfl

/-- The centroid operand: the centroids flattened to [1024, 256] and rounded to bf16. -/
theorem V_v2 (c : Dev nD) : (V m c main_v2 : S1024x256.Idx → EReal)
    = truncf (F := Ideal) .bf16 (shapeCast S1024x256 (m ((c : Thread nD τ).loc main_arg1)) shapeCasts_S1x1024x256_S1024x256) bitsLt_bf16_f32 := by
  show StableHlo.after hostOps0 (fun b => m (c, b)) (Proc.devRef .tc main_v2) = _
  after_results
  rfl

/-- The norm operand: the host's row sums of the squared centroids, from zero, laid as one row. -/
theorem V_v5 (c : Dev nD) : (V m c main_v5 : S1x1024.Idx → EReal)
    = shapeCast S1x1024 (Host.reduceAdd (F := Ideal)
        (mulf (shapeCast S1024x256 (m ((c : Thread nD τ).loc main_arg1)) shapeCasts_S1x1024x256_S1024x256)
          (shapeCast S1024x256 (m ((c : Thread nD τ).loc main_arg1)) shapeCasts_S1x1024x256_S1024x256))
        (constant (F := Ideal) S_ .f32 0x00000000#32) reducesTo_S1024x256_S1024_d1 h_S_) shapeCasts_S1024_S1x1024 := by
  show StableHlo.after hostOps0 (fun b => m (c, b)) (Proc.devRef .tc main_v5) = _
  after_results
  rfl

/-- The norm row at entry k is the squared norm of centroid row k (the host's sum starts from the literal zero). -/
theorem normRow_apply (C : FVec Ideal S1024x256 .f32) (k : Fin 1024) :
    shapeCast S1x1024 (Host.reduceAdd (F := Ideal) (mulf C C) (constant (F := Ideal) S_ .f32 0x00000000#32)
        reducesTo_S1024x256_S1024_d1 h_S_) shapeCasts_S1024_S1x1024 (ix2 (0 : Fin 1) k) = sqNorm (row C k) := by
  refine (shapeCast_a_1a_apply _ shapeCasts_S1024_S1x1024 (0 : Fin 1) k).trans ?_
  simp only [Host.reduceAdd, Ideal.hostReduceAdd_def]
  rw [Ideal.hostReduceAdd_single reducesTo_S1024x256_S1024_d1 reduces_S1024x256_S1024]
  show Ideal.ofBits .f32 0x00000000#32 + _ = _
  rw [Ideal.ofBits_zero_f32, zero_add]
  unfold sqNorm
  refine Finset.sum_congr rfl fun d _ => ?_
  have e : reduces_S1024x256_S1024.lift (ix1 k) d = ix2 k d :=
    funext fun a => Fin.ext (by match a with | ⟨0, _⟩ => rfl | ⟨1, _⟩ => rfl)
  exact congrArg (fun z => C z * C z) e

/-- With the centroid operand the rounded centroids and the norm operand their squared norms, the array function
    is the specification. -/
theorem arrDist_eq_dist (X : FVec Ideal S65536x256 .f32) (C : FVec Ideal S1024x256 .f32) :
    arrDist X (truncf .bf16 C bitsLt_bf16_f32)
      (shapeCast S1x1024 (Host.reduceAdd (F := Ideal) (mulf C C) (constant (F := Ideal) S_ .f32 0x00000000#32)
        reducesTo_S1024x256_S1024_d1 h_S_) shapeCasts_S1024_S1x1024) = dist X C := by
  funext j
  obtain ⟨n, k, rfl⟩ : ∃ (n : Fin 65536) (k : Fin 1024), j = ix2 n k := ⟨j 0, j 1, eq_ix2 j⟩
  rw [dist_ix2]
  show distRow (row X n) (row C k) (shapeCast S1x1024 _ shapeCasts_S1024_S1x1024 (ix2 (0 : Fin 1) k)) = _
  rw [normRow_apply]

/-! ## The run, read -/

/-- The features as the [65536, 256] matrix and the centroids as the [1024, 256] matrix both programs work on. -/
abbrev Xmat (c : Dev nD) : FVec Ideal S65536x256 .f32 :=
  shapeCast S65536x256 (m ((c : Thread nD τ).loc main_arg0)) shapeCasts_S16x4096x256_S65536x256
abbrev Cmat (c : Dev nD) : FVec Ideal S1024x256 .f32 :=
  shapeCast S1024x256 (m ((c : Thread nD τ).loc main_arg1)) shapeCasts_S1x1024x256_S1024x256

/-- The array function of the three arrays the region finds is the specification of the two matrices. -/
theorem arr_spec (c : Dev nD) :
    arrDist (V m c main_v0) (V m c main_v2) (V m c main_v5) = dist (Xmat m c) (Cmat m c) := by
  rw [V_v0, V_v2, V_v5]
  exact arrDist_eq_dist _ _

/-- The host line after the launch reshapes the result array, which holds the specification. -/
theorem tail_eq (c : Dev nD) :
    Pipeline.afterTail₀ cfgs (dats m) 0 (V0 m) [hostOps1] c main_v7
      = shapeCast S16x4096x1024 (dist (Xmat m c) (Cmat m c)) shapeCasts_S65536x1024_S16x4096x1024 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = dist (Xmat m c) (Cmat m c) :=
    (Pipeline.withArrays_arr spec0 launch0.win.arr_inj c _ _ 3).trans ((final m c).trans (arr_spec m c))
  rw [hw]
  rfl

/-- THE KERNEL'S RUN, READ: the result ends at the reshaped specification of the two flattened arguments, and the
    arguments end as launched. -/
theorem run : θ_run defs (onTc (τ := τ) (main (F := Ideal))) ⟨m, fun _ => 0, ρ⟩ fun r => ∀ c : Dev nD,
      r.2.mem ((c : Thread nD τ).loc main_v7)
        = shapeCast S16x4096x1024 (dist (Xmat m c) (Cmat m c)) shapeCasts_S65536x1024_S16x4096x1024
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v7 (Pipeline.mem_restRefs_of main_v7 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference, read at an entry: jnp's  x2 + c2[None, :] − 2.0 · (x @ c.T)  on the flattened matrices X = features as
  [65536, 256] and C = centroids as [1024, 256] is the specification. At (n, k): the host's two row sums start from
  the literal zero, which adds nothing; the keepdims column and the [None, :] row are broadcasts that read row n's
  and row k's sum; the product with the transposed centroids contracts over the 256 columns, Σ_d X[n,d] · C[k,d].
-/
import proofs.«162735_j66348654788813_2_alg».proof.Proof.Gen.ReferenceIdeal.Read
import proofs.«162735_j66348654788813_2_alg».proof.Proof.DistSpec

noncomputable section

namespace Cert.ReferenceIdeal.RefValue

open Cert.ReferenceIdeal Cert.ReferenceIdeal.Gen Cert.ReferenceIdeal.Read
open Idealize.ShloMosaic Idealize.ShloMosaic.ValueIdx Cert.Dist

/-- The last operation before the final reshape is the specification of the two flattened matrices. -/
theorem ref_eq (x0 : (⟨S16x4096x256, .f32⟩ : BufTy).Contents (Elt Ideal)) (x1 : (⟨S1x1024x256, .f32⟩ : BufTy).Contents (Elt Ideal)) :
    val_main_v15 (F := Ideal) x0 x1 = dist (val_main_v0 (F := Ideal) x0) (val_main_v1 (F := Ideal) x1) := by
  funext i
  obtain ⟨n, k, rfl⟩ : ∃ (n : Fin 65536) (k : Fin 1024), i = ix2 n k := ⟨i 0, i 1, eq_ix2 i⟩
  have eX : ∀ d : Fin 256, idx_main_v3 (idx_main_v4 (idx_main_v8 (ix2 n k))) d = ix2 n d := fun d =>
    funext fun a => Fin.ext (by match a with | ⟨0, _⟩ => rfl | ⟨1, _⟩ => rfl)
  have eC : ∀ d : Fin 256, idx_main_v6 (idx_main_v7 (idx_main_v9 (ix2 n k))) d = ix2 k d := fun d =>
    funext fun a => Fin.ext (by match a with | ⟨0, _⟩ => rfl | ⟨1, _⟩ => rfl)
  have eL : ∀ d : Fin 256, lidx_main_v12 (ix2 n k) d = ix2 n d := fun d =>
    funext fun a => Fin.ext (by match a with | ⟨0, _⟩ => rfl | ⟨1, _⟩ => rfl)
  have eR : ∀ d : Fin 256, idx_main_v11 (ridx_main_v12 (ix2 n k) d) = ix2 k d := fun d =>
    funext fun a => Fin.ext (by match a with | ⟨0, _⟩ => rfl | ⟨1, _⟩ => rfl)
  rw [dist_ix2, val_main_v15_apply, val_main_v10_apply, val_main_v8_apply, val_main_v4_apply, val_main_v3_apply,
    val_main_v9_apply, val_main_v7_apply, val_main_v6_apply, val_main_v14_apply, val_main_v13_apply, val_main_v12_apply]
  simp only [val_main_v2_apply, val_main_v5_apply, val_main_v11_apply, val_main_cst_apply, val_main_cst_0_apply,
    val_main_cst_1_apply, eX, eC, eL, eR]
  generalize val_main_v0 (F := Ideal) x0 = X
  generalize val_main_v1 (F := Ideal) x1 = C
  simp only [Ideal.mulf_def, Ideal.addf_def, Ideal.subf_def, Ideal.ofBits_def, Ideal.ofBits_zero_f32, zero_add]
  rfl

/-- So the reference's result is the reshaped specification of the two flattened arguments. -/
theorem result_eq (x0 : (⟨S16x4096x256, .f32⟩ : BufTy).Contents (Elt Ideal)) (x1 : (⟨S1x1024x256, .f32⟩ : BufTy).Contents (Elt Ideal)) :
    val_main_v16 (F := Ideal) x0 x1
      = shapeCast S16x4096x1024 (dist (val_main_v0 (F := Ideal) x0) (val_main_v1 (F := Ideal) x1)) shapeCasts_S65536x1024_S16x4096x1024 := by
  unfold val_main_v16
  rw [ref_eq]

end Cert.ReferenceIdeal.RefValue

end
-- ==== Proof.lean ====
/-
  Squared distances of 65536 feature vectors to 1024 centroids, kernel against jnp reference, on the extended reals.

  Both programs flatten the features to X : [65536, 256] and the centroids to C : [1024, 256] and compute, at (n, k),
      (Σ_d X[n,d]²  +  Σ_d C[k,d]²)  −  2 · Σ_d X[n,d] · C[k,d],
  then reshape to [16, 4096, 1024]. The kernel gets there in 32 grid points of two 1024-row chunks each, with the
  centroids rounded to bf16 (the identity on the extended reals), their squared norms precomputed on the host, and
  the inner products by a matrix product contracting both operands' second axis; the reference by two host row
  sums, two broadcasts and one product with the transposed centroids. The same three sums are combined in the same
  order on both sides — the two norms added first, twice the inner product subtracted last — so the two results are
  equal term by term and no law of the extended reals that needs finite entries is used: the precondition is never
  opened. The idealization rewrote nothing, so `preserves` is trivial.

  DistSpec states the function; Payload reads the kernel body's arithmetic at an entry; BodyValue shows the body leaves
  that function of its blocks in the output block (two chunk stores tiling it); KernelValue carries it through the
  grid to the result array and through the host lines around the launch; RefValue reads the reference the same way.
-/
import proofs.«162735_j66348654788813_2_alg».proof.Defs
import proofs.«162735_j66348654788813_2_alg».proof.Proof.Gen.Kernel
import proofs.«162735_j66348654788813_2_alg».proof.Proof.Gen.Kernel.Frame
import proofs.«162735_j66348654788813_2_alg».proof.Proof.Gen.KernelIdeal
import proofs.«162735_j66348654788813_2_alg».proof.Proof.Gen.KernelIdeal.Frame
import proofs.«162735_j66348654788813_2_alg».proof.Proof.Gen.ReferenceIdeal
import proofs.«162735_j66348654788813_2_alg».proof.Proof.Gen.ReferenceIdeal.Run
import proofs.«162735_j66348654788813_2_alg».proof.Proof.Gen.ReferenceIdeal.Read
import proofs.«162735_j66348654788813_2_alg».proof.Proof.Gen.Pre_finite_inputs
import proofs.«162735_j66348654788813_2_alg».proof.Proof.KernelValue
import proofs.«162735_j66348654788813_2_alg».proof.Proof.RefValue
import Idealize.ShloMosaic.Adequacy
import Idealize.ShloMosaic.Init

noncomputable section

namespace Cert.Proof

open Idealize.ShloMosaic Idealize.ShloMosaic.TcCoe Idealize.SL.Sem

/-- The three programs run to the end with their arguments unchanged: the two kernels by their launch's frame, the
    reference by its straight-line run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From arguments that agree, both idealized programs end at the reshaped distance matrix of the same two flattened
    matrices. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v16_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
